-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S512x128 : Shape := ⟨2, ![512, 128]⟩
abbrev S128x64 : Shape := ⟨2, ![128, 64]⟩
abbrev S64 : Shape := ⟨1, ![64]⟩
abbrev S64x1024 : Shape := ⟨2, ![64, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S64x1024 .f32) (main_arg5 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16384x1024 .f32) (main_arg1 : FVec F S512x128 .f32) (main_arg2 : FVec F S128x64 .f32) (main_arg3 : FVec F S64 .f32) (main_arg4 : FVec F S64x1024 .f32) (main_arg5 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16384x1024 : Shape := ⟨2, ![16384, 1024]⟩
abbrev S512x128 : Shape := ⟨2, ![512, 128]⟩
abbrev S128x64 : Shape := ⟨2, ![128, 64]⟩
abbrev S64 : Shape := ⟨1, ![64]⟩
abbrev S64x1024 : Shape := ⟨2, ![64, 1024]⟩
abbrev S1024 : Shape := ⟨1, ![1024]⟩
abbrev S512x64 : Shape := ⟨2, ![512, 64]⟩
abbrev S1x64 : Shape := ⟨2, ![1, 64]⟩
abbrev S_ : Shape := ⟨0, ![]⟩
abbrev S512x1024 : Shape := ⟨2, ![512, 1024]⟩
abbrev S1x1024 : Shape := ⟨2, ![1, 1024]⟩
abbrev S1024x512 : Shape := ⟨2, ![1024, 512]⟩
abbrev S512 : Shape := ⟨1, ![512]⟩
abbrev S1x512 : Shape := ⟨2, ![1, 512]⟩
abbrev S16384x1 : Shape := ⟨2, ![16384, 1]⟩
abbrev S2048x1024 : Shape := ⟨2, ![2048, 1024]⟩
abbrev S2048x1 : Shape := ⟨2, ![2048, 1]⟩
abbrev S1024x1024 : Shape := ⟨2, ![1024, 1024]⟩
abbrev S1024x1 : Shape := ⟨2, ![1024, 1]⟩

abbrev nBuf : Space → Nat
  | .hbm => 28
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S512x128, .f32⟩
  | .hbm, ⟨2, _⟩ => ⟨S128x64, .f32⟩
  | .hbm, ⟨3, _⟩ => ⟨S64, .f32⟩
  | .hbm, ⟨4, _⟩ => ⟨S64x1024, .f32⟩
  | .hbm, ⟨5, _⟩ => ⟨S1024, .f32⟩
  | .hbm, ⟨6, _⟩ => ⟨S512x64, .f32⟩
  | .hbm, ⟨7, _⟩ => ⟨S1x64, .f32⟩
  | .hbm, ⟨8, _⟩ => ⟨S512x64, .f32⟩
  | .hbm, ⟨9, _⟩ => ⟨S512x64, .f32⟩
  | .hbm, ⟨10, _⟩ => ⟨S_, .f32⟩
  | .hbm, ⟨11, _⟩ => ⟨S512x64, .f32⟩
  | .hbm, ⟨12, _⟩ => ⟨S512x64, .f32⟩
  | .hbm, ⟨13, _⟩ => ⟨S512x1024, .f32⟩
  | .hbm, ⟨14, _⟩ => ⟨S1x1024, .f32⟩
  | .hbm, ⟨15, _⟩ => ⟨S512x1024, .f32⟩
  | .hbm, ⟨16, _⟩ => ⟨S512x1024, .f32⟩
  | .hbm, ⟨17, _⟩ => ⟨S1024x512, .f32⟩
  | .hbm, ⟨18, _⟩ => ⟨S1024x512, .bf16⟩
  | .hbm, ⟨19, _⟩ => ⟨S512x1024, .f32⟩
  | .hbm, ⟨20, _⟩ => ⟨S_, .f32⟩
  | .hbm, ⟨21, _⟩ => ⟨S512, .f32⟩
  | .hbm, ⟨22, _⟩ => ⟨S1x512, .f32⟩
  | .hbm, ⟨23, _⟩ => ⟨S16384x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1x512, .f32⟩
  | .local _ .vmem, ⟨4, _⟩ => ⟨S2048x1, .f32⟩
  | .local _ .vmem, ⟨5, _⟩ => ⟨S2048x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_cst : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_0 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_cst_1 : Ref sig .tc := ⟨.hbm, 24, rfl⟩
abbrev main_call0_v16 : Ref sig .tc := ⟨.hbm, 25, rfl⟩
abbrev main_call0_cst_2 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32 : BitVec 32 := 1024#32
  let v4 : BitVec 32 := Scalar.muli c0_i32 c1024_i32
  v4
def k0_off1 (c0_i32 : BitVec 32) : Fin 2 → Nat :=
  let c1024_i32 : BitVec 32 := 1024#32
  let v4 : BitVec 32 := Scalar.muli c0_i32 c1024_i32
  let v5 : BitVec 32 := v4
  let v6 : Index := Scalar.indexCast v5
  let c0_3 : Index := 0#32
  ![v6.toNat, 0]
def k0_off2 (c0_i32 : BitVec 32) : Fin 2 → Nat :=
  let c1024_i32 : BitVec 32 := 1024#32
  let v4 : BitVec 32 := Scalar.muli c0_i32 c1024_i32
  let v5 : BitVec 32 := v4
  let v31 : Index := Scalar.indexCast v5
  let c0_11 : Index := 0#32
  ![v31.toNat, 0]
def k0_mult2 : BitVec 32 :=
  let c1_i32 : BitVec 32 := 1#32
  let c1024_i32_12 : BitVec 32 := 1024#32
  let v33 : BitVec 32 := Scalar.muli c1_i32 c1024_i32_12
  v33
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  transposes_S512x1024_S1024x512_1_0 : S512x1024.Transposes [1, 0] S1024x512
  bitsLt_bf16_f32 : FTy.bits .bf16 < FTy.bits .f32
  reducesTo_S512x1024_S512_d1 : S512x1024.ReducesTo [1] S512
  h_S_ : 0 < S_.numel
  shapeCasts_S512_S1x512 : S512.ShapeCasts S1x512
  reducesTo_S16384x1_S_d0_1 : S16384x1.ReducesTo [0, 1] S_
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  h_S1024x1024 : 0 < S1024x1024.numel
  reduces_S1024x1024_S1024 : S1024x1024.Reduces [1] S1024
  shapeCasts_S1024_S1024x1 : S1024.ShapeCasts S1024x1
  broadcasts_S1x512_S1024x512 : S1x512.Broadcasts S1024x512
  broadcasts_S1024x1_S1024x512 : S1024x1.Broadcasts S1024x512
  reduces_S1024x512_S1024 : S1024x512.Reduces [1] S1024
  h_S1024x1 : 0 < S1024x1.numel
  dot_S512x128_S128x64_S512x64_1_0_0_1_n_n_wf : DotDims.WF S512x128 S128x64 S512x64 [1] [0] [0] [1] [] []
  dot_S512x64_S64x1024_S512x1024_1_0_0_1_n_n_wf : DotDims.WF S512x64 S64x1024 S512x1024 [1] [0] [0] [1] [] []
  dot_S1024x1024_S1024x512_S1024x512_1_0_0_1_n_n_wf : DotDims.WF S1024x1024 S1024x512 S1024x512 [1] [0] [0] [1] [] []
  hrank0 : 0 < grid0.rank
  k0_mult1_dvd : 1024 ∣ k0_mult1.toNat
  k0_off1_inb : ∀ (r : Fin 2), ∀ a, (k0_off1 (BitVec.ofNat 32 r.val)) a + S1024x1024.size a ≤ S2048x1024.size a
  k0_off2_inb : ∀ (r : Fin 2), ∀ a, (k0_off2 (BitVec.ofNat 32 r.val)) a + S1024x1.size a ≤ S2048x1.size a
  k0_mult2_dvd : 1024 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)

variable [Facts₀]

def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S512x128 : Shape := ⟨2, ![512, 128]⟩
abbrev S128x64 : Shape := ⟨2, ![128, 64]⟩
abbrev S64 : Shape := ⟨1, ![64]⟩
abbrev S64x1024 : Shape := ⟨2, ![64, 1024]⟩
abbrev S1024 : Shape := ⟨1, ![1024]⟩
abbrev S512x64 : Shape := ⟨2, ![512, 64]⟩
abbrev S1x64 : Shape := ⟨2, ![1, 64]⟩
abbrev S_ : Shape := ⟨0, ![]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S16384 : Shape := ⟨1, ![16384]⟩
abbrev S1x16384 : Shape := ⟨2, ![1, 16384]⟩
abbrev S512x16384 : Shape := ⟨2, ![512, 16384]⟩
abbrev S1024x16384 : Shape := ⟨2, ![1024, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x128, .f32⟩
  | .hbm, ⟨2, _⟩ => ⟨S128x64, .f32⟩
  | .hbm, ⟨3, _⟩ => ⟨S64, .f32⟩
  | .hbm, ⟨4, _⟩ => ⟨S64x1024, .f32⟩
  | .hbm, ⟨5, _⟩ => ⟨S1024, .f32⟩
  | .hbm, ⟨6, _⟩ => ⟨S512x64, .f32⟩
  | .hbm, ⟨7, _⟩ => ⟨S1x64, .f32⟩
  | .hbm, ⟨8, _⟩ => ⟨S512x64, .f32⟩
  | .hbm, ⟨9, _⟩ => ⟨S512x64, .f32⟩
  | .hbm, ⟨10, _⟩ => ⟨S_, .f32⟩
  | .hbm, ⟨11, _⟩ => ⟨S512x64, .f32⟩
  | .hbm, ⟨12, _⟩ => ⟨S512x64, .f32⟩
  | .hbm, ⟨13, _⟩ => ⟨S512x1024, .f32⟩
  | .hbm, ⟨14, _⟩ => ⟨S1x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512, .f32⟩
  | .hbm, ⟨20, _⟩ => ⟨S512x1, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S1x16384, .f32⟩
  | .hbm, ⟨25, _⟩ => ⟨S512x16384, .f32⟩
  | .hbm, ⟨26, _⟩ => ⟨S512x16384, .f32⟩
  | .hbm, ⟨27, _⟩ => ⟨S512x16384, .f32⟩
  | .hbm, ⟨28, _⟩ => ⟨S1024x16384, .f32⟩
  | .hbm, ⟨29, _⟩ => ⟨S512x16384, .f32⟩
  | .hbm, ⟨30, _⟩ => ⟨S_, .f32⟩
  | .hbm, ⟨31, _⟩ => ⟨S512x16384, .f32⟩
  | .hbm, ⟨32, _⟩ => ⟨S512x16384, .f32⟩
  | .hbm, ⟨33, _⟩ => ⟨S512x16384, .f32⟩
  | .hbm, ⟨34, _⟩ => ⟨S512x16384, .f32⟩
  | .hbm, ⟨35, _⟩ => ⟨S512x16384, .f32⟩
  | .hbm, ⟨36, _⟩ => ⟨S_, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  reducesTo_S512x1024_S512_d1 : S512x1024.ReducesTo [1] S512
  h_S_ : 0 < S_.numel
  bcast_S512_S512x1_0 : S512.BroadcastsInDim S512x1 (![0] : Fin 1 → Fin S512x1.rank)
  reducesTo_S16384x1024_S16384_d1 : S16384x1024.ReducesTo [1] S16384
  bcast_S16384_S1x16384_1 : S16384.BroadcastsInDim S1x16384 (![1] : Fin 1 → Fin S1x16384.rank)
  bcast_S512x1_S512x16384_0_1 : S512x1.BroadcastsInDim S512x16384 (![0, 1] : Fin 2 → Fin S512x16384.rank)
  bcast_S1x16384_S512x16384_0_1 : S1x16384.BroadcastsInDim S512x16384 (![0, 1] : Fin 2 → Fin S512x16384.rank)
  transposes_S16384x1024_S1024x16384_1_0 : S16384x1024.Transposes [1, 0] S1024x16384
  bcast_S_S512x16384 : S_.BroadcastsInDim S512x16384 (![] : Fin 0 → Fin S512x16384.rank)
  reducesTo_S512x16384_S16384_d0 : S512x16384.ReducesTo [0] S16384
  bcast_S_S16384 : S_.BroadcastsInDim S16384 (![] : Fin 0 → Fin S16384.rank)
  reducesTo_S16384_S_d0 : S16384.ReducesTo [0] S_
  dot_S512x128_S128x64_S512x64_1_0_0_1_n_n_wf : DotDims.WF S512x128 S128x64 S512x64 [1] [0] [0] [1] [] []
  dot_S512x64_S64x1024_S512x1024_1_0_0_1_n_n_wf : DotDims.WF S512x64 S64x1024 S512x1024 [1] [0] [0] [1] [] []
  dot_S512x1024_S1024x16384_S512x16384_1_0_0_1_n_n_wf : DotDims.WF S512x1024 S1024x16384 S512x16384 [1] [0] [0] [1] [] []

variable [Facts₀]

def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x16384_S512x16384_1_0_0_1_n_n : DotDims S512x1024 S1024x16384 S512x16384 where
  lhsContracting := [1]
  rhsContracting := [0]
  lhsNonContracting := [0]
  rhsNonContracting := [1]
  lhsBatch := []
  rhsBatch := []
  wf := dot_S512x1024_S1024x16384_S512x16384_1_0_0_1_n_n_wf

class Facts : Prop extends Facts₀ where

variable [Facts]
-- ==== Proof.LibReal.lean ====
/-
  Real entries of extended-real arrays.

  * `IsReal x`: the extended real `x` is a real number; closed under sums, products, maxima and finite sums; the
    zero word of single precision is real; `|x| < +∞` makes `x` real; the coercion of the reals commutes with finite sums;
  * the usual finiteness precondition read entry by entry: where `all (|x| < +∞)` — the comparison of `|x|` with the
    broadcast `+∞` word, reduced by `and` from 1 over all axes into the scalar shape — is 1, every entry of `x` is real
    (`real_of_entry`, `real_of_all`), for an array of any shape.
-/
import Idealize.ShloMosaic.PureOps.Ideal
import Idealize.ShloMosaic.PureOps.Ideal.Laws
import Idealize.ShloMosaic.Lib.ValueIdx
import Idealize.ShloMosaic.Lib.ReduceAll

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩
theorem isReal_zero_word : IsReal (Ideal.ofBits .f32 0x00000000#32) := ⟨0, by rw [Ideal.ofBits_zero_f32]; rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `|x| < +∞` says `x` is a real number. -/
theorem isReal_of_abs_lt_top {x : EReal} (h : max x (-x) < ⊤) : IsReal x := by
  induction x using EReal.rec with
  | bot => simp at h
  | coe r => exact ⟨r, rfl⟩
  | top => simp at h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The finiteness precondition, entry by entry -/

/-- The scalar shape has exactly one index, so a reduction over all axes has one result. -/
private instance subsingleton_scalar_idx : Subsingleton (⟨0, ![]⟩ : Shape).Idx := ⟨fun a b => funext fun d => d.elim0⟩

/-- The single-precision pattern `0x7F800000` (sign 0, exponent all ones, significand 0) denotes `+∞`. -/
theorem top_word : Ideal.ofBits .f32 0x7F800000#32 = ⊤ := by simp [Ideal.ofBits, Ideal.ieee]

/-- A Boolean as a one-bit word is 1 exactly when it is true. -/
theorem ofBool_eq_one (b : Bool) : BitVec.ofBool b = 1#1 ↔ b = true := by cases b <;> decide

/-- One entry. The comparison `|x| < c` at an index compares `max (x i) (-(x i))` with the value the scalar `c`
    broadcasts, here `+∞`; where it yields 1 the entry's absolute value is below `+∞`, so the entry is real. -/
theorem real_of_entry {s : Shape} (hb : (⟨0, ![]⟩ : Shape).BroadcastsInDim s (![] : Fin 0 → Fin s.rank))
    (x : FVec Ideal s .f32) (i : s.Idx)
    (e : cmpf .olt (Host.absf x) (broadcastInDim s ![] hb (constant ⟨0, ![]⟩ .f32 0x7F800000#32)) i = 1#1) :
    IsReal (x i) := by
  apply isReal_of_abs_lt_top
  have e' : Ideal.cmp .olt (max (x i) (-(x i))) (Ideal.ofBits .f32 0x7F800000#32) = 1#1 := e
  rw [top_word] at e'
  have e'' : BitVec.ofBool (decide (max (x i) (-(x i)) < ⊤)) = 1#1 := e'
  exact of_decide_eq_true ((ofBool_eq_one _).1 e'')

/-- One input. A conjunction (a reduction by `and` from 1) over all axes that is 1 met a 1 at every index, and
    each such 1 says that entry is real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) (i : s.Idx) : IsReal (x i) :=
  real_of_entry hb x i (Host.reduce_andi_all _ init hr hu _ e i)

end Cert.LibReal

end
-- ==== Proof.Spec.lean ====
import Idealize.ShloMosaic.PureOps.Ideal.Laws
import Idealize.ShloMosaic.Lib.ValueIdx
import proofs.«151638_j88424786690567_2_alg».proof.Proof.LibReal

/-!
# The mixture log-likelihood, row by row, on the extended reals

Both programs compute, for every batch row `b`, the logarithm of the mean over the 512 components `k` of
`exp (-‖x_b - φ_k‖²)`, the squared distance expanded as `‖φ_k‖² + ‖x_b‖² - 2⟨φ_k, x_b⟩`, and then the mean of
those 16384 logarithms. One of them clamps the expanded squared distance at zero from below before negating it.
On finite (real) entries the expansion is the sum of the squares `(x_b,d - φ_k,d)²`, which is not negative, so
the clamp is the identity there; the rest is the commutativity of the product and `0 + s = s`.
-/

noncomputable section

namespace Cert.Mixture

open Idealize.ShloMosaic

export Cert.LibReal (IsReal isReal_coe isReal_zero_word IsReal.add IsReal.mul IsReal.max IsReal.sum isReal_of_abs_lt_top)

/-- One row as the tiled program computes it: `PS k` the squared norm of component `k`, `PT d k` its
    `d`-th coordinate, `X d` the row's; the squared distance clamped at zero. -/
def kerRow (PS : Fin 512 → EReal) (PT : Fin 1024 → Fin 512 → EReal) (X : Fin 1024 → EReal) : EReal :=
  Ideal.log (Ideal.div (∑ k : Fin 512, Ideal.exp (Ideal.ofBits .f32 0x00000000#32 -
      max ((PS k + ∑ d : Fin 1024, X d * X d) - Ideal.ofBits .f32 0x40000000#32 * ∑ d : Fin 1024, X d * PT d k)
        (Ideal.ofBits .f32 0x00000000#32)))
    (Ideal.ofBits .f32 0x44000000#32) + Ideal.ofBits .f32 0x3089705F#32)

/-- One row as the plain program computes it: `P k d` coordinate `d` of component `k`. -/
def refRow (P : Fin 512 → Fin 1024 → EReal) (X : Fin 1024 → EReal) : EReal :=
  Ideal.log (Ideal.div (Ideal.ofBits .f32 0x00000000#32 + ∑ k : Fin 512, Ideal.exp (-(((Ideal.ofBits .f32 0x00000000#32 + ∑ d : Fin 1024, P k d * P k d)
      + (Ideal.ofBits .f32 0x00000000#32 + ∑ d : Fin 1024, X d * X d)) - Ideal.ofBits .f32 0x40000000#32 * ∑ d : Fin 1024, P k d * X d)))
    (Ideal.ofBits .f32 0x44000000#32) + Ideal.ofBits .f32 0x3089705F#32)

/-- The mean of the 16384 rows. -/
def total (row : Fin 16384 → EReal) : EReal :=
  Ideal.div (Ideal.ofBits .f32 0x00000000#32 + ∑ b : Fin 16384, row b) (Ideal.ofBits .f32 0x46800000#32)

/-- The single-precision word `0x40000000` is the number two. -/
private theorem two_word : Ideal.ofBits .f32 0x40000000#32 = ((2 : ℝ) : EReal) := by
  simp [Ideal.ofBits, Ideal.ieee, -EReal.coe_mul]; norm_num

/-- The expanded squared distance `Σ p² + Σ x² - 2 Σ x p` of two real vectors is `Σ (x - p)²`, so it is not negative. -/
private theorem expand_nonneg {ι : Type*} (s : Finset ι) (p x : ι → ℝ) :
    0 ≤ (∑ d ∈ s, p d * p d) + (∑ d ∈ s, x d * x d) - 2 * ∑ d ∈ s, x d * p d := by
  have e : (∑ d ∈ s, p d * p d) + (∑ d ∈ s, x d * x d) - 2 * ∑ d ∈ s, x d * p d = ∑ d ∈ s, (x d - p d) ^ 2 := by
    rw [Finset.mul_sum, ← Finset.sum_add_distrib, ← Finset.sum_sub_distrib]
    exact Finset.sum_congr rfl fun d _ => by ring
  rw [e]
  exact Finset.sum_nonneg fun d _ => sq_nonneg _

/-- One component: on real vectors the clamp at zero of the expanded squared distance is the identity, so the tiled
    program's exponent `0 - max (‖φ‖² + ‖x‖² - 2⟨x, φ⟩) 0` is the plain program's `-(‖φ‖² + ‖x‖² - 2⟨φ, x⟩)`. -/
private theorem clamp_comp {ι : Type*} [Fintype ι] (Pk X : ι → EReal) (hP : ∀ d, IsReal (Pk d)) (hX : ∀ d, IsReal (X d)) :
    Ideal.ofBits .f32 0x00000000#32 -
        max (((Ideal.ofBits .f32 0x00000000#32 + ∑ d, Pk d * Pk d) + ∑ d, X d * X d)
            - Ideal.ofBits .f32 0x40000000#32 * ∑ d, X d * Pk d) (Ideal.ofBits .f32 0x00000000#32)
      = -(((Ideal.ofBits .f32 0x00000000#32 + ∑ d, Pk d * Pk d) + (Ideal.ofBits .f32 0x00000000#32 + ∑ d, X d * X d))
            - Ideal.ofBits .f32 0x40000000#32 * ∑ d, Pk d * X d) := by
  choose p hp using hP
  choose x hx using hX
  obtain rfl : Pk = fun d => (p d : EReal) := funext hp
  obtain rfl : X = fun d => (x d : EReal) := funext hx
  rw [Ideal.ofBits_zero_f32, two_word]
  simp only [zero_add, zero_sub]
  have hpx : ∑ d, (p d : EReal) * (x d : EReal) = ∑ d, (x d : EReal) * (p d : EReal) :=
    Finset.sum_congr rfl fun d _ => mul_comm _ _
  rw [hpx]
  simp only [← EReal.coe_mul, ← Cert.LibReal.coe_sum, ← EReal.coe_add, ← EReal.coe_sub]
  rw [max_eq_left (EReal.coe_nonneg.2 (expand_nonneg Finset.univ p x))]

/-- On real entries the clamped, tiled row is the plain row. -/
theorem kerRow_eq_refRow (P : Fin 512 → Fin 1024 → EReal) (X : Fin 1024 → EReal)
    (hP : ∀ k d, IsReal (P k d)) (hX : ∀ d, IsReal (X d)) :
    kerRow (fun k => Ideal.ofBits .f32 0x00000000#32 + ∑ d : Fin 1024, P k d * P k d) (fun d k => P k d) X = refRow P X := by
  have hk := fun k => clamp_comp (P k) X (hP k) hX
  simp only [kerRow, refRow, hk]
  rw [Ideal.ofBits_zero_f32]
  simp only [zero_add]

/-- A sum over the indices of a column [16384, 1] is the sum over its rows. -/
theorem sum_col (f : (⟨2, ![16384, 1]⟩ : Shape).Idx → EReal) :
    ∑ i, f i = ∑ b : Fin 16384, f (ValueIdx.ix2 b (0 : Fin 1)) := by
  rw [ValueIdx.sum_idx2]
  exact Finset.sum_congr rfl fun b _ => Fin.sum_univ_one _

/-- A sum over the indices of a vector [16384] is the sum over its entries. -/
theorem sum_vec (f : (⟨1, ![16384]⟩ : Shape).Idx → EReal) :
    ∑ i, f i = ∑ b : Fin 16384, f (ValueIdx.ix1 b) := by
  let e : (⟨1, ![16384]⟩ : Shape).Idx ≃ Fin 16384 :=
    { toFun := fun i => i 0
      invFun := fun a => ValueIdx.ix1 a
      left_inv := fun i => (ValueIdx.eq_ix1 i).symm
      right_inv := fun _ => rfl }
  exact Fintype.sum_equiv e _ _ fun i => congrArg f (ValueIdx.eq_ix1 i)

end Cert.Mixture

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibLaneSum.lean ====
/-
  A sum along the lanes of an `[a, n]` array, kept as a column `[a, 1]` (a sum over the last axis with the axis kept),
  read at `(r, u)` on the extended reals: it is the plain sum `∑ d, src[r, d]` over the `n` entries of row `r`.
-/
import Idealize.ShloMosaic.PureOps.Ideal
import Idealize.ShloMosaic.PureOps.Ideal.Laws
import Idealize.ShloMosaic.Lib.ValueIdx
import Idealize.ShloMosaic.Lib.Pipeline.Value
import proofs.«151638_j88424786690567_2_alg».proof.Proof.LibRowwise

noncomputable section

open scoped BigOperators

namespace Cert.LibLaneSum

open Idealize.ShloMosaic Idealize.ShloMosaic.ValueIdx

/-- A sum along the lanes, kept as a column: at `(r, u)` it is the sum of row `r`. The accumulator word is the zero
    word, whatever proof the program carries of that. -/
theorem lane_sum_col {a n : ℕ} (src : FVec Ideal ⟨2, ![a, n]⟩ .f32)
    (hred : (⟨2, ![a, n]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (r : Fin a) (u : Fin 1) :
    shapeCast ⟨2, ![a, 1]⟩ (multiReduction .add [1] ⟨1, ![a]⟩ src 0x00000000#32 hred hφ hacc) hsc (ix2 r u)
      = ∑ d : Fin n, src (ix2 r d) := by
  refine (Cert.LibRowwise.shapeCast_a_a1_apply _ hsc r u).trans ?_
  refine (Ideal.multiReduction_add_single src _ hred hφ hacc (ix1 r)).trans ?_
  show (∑ d : Fin n, src (hred.lift (ix1 r) d)) = _
  refine Finset.sum_congr rfl fun d _ => congrArg src (funext fun ax => Fin.ext ?_)
  match ax with
  | ⟨0, _⟩ => rfl
  | ⟨1, _⟩ => rfl

end Cert.LibLaneSum

end
-- ==== Proof.KernelHalf.lean ====
import proofs.«151638_j88424786690567_2_alg».proof.Proof.Gen.KernelIdeal.Skeleton
import proofs.«151638_j88424786690567_2_alg».proof.Proof.Spec
import proofs.«151638_j88424786690567_2_alg».proof.Proof.LibRowwise
import proofs.«151638_j88424786690567_2_alg».proof.Proof.LibDot
import proofs.«151638_j88424786690567_2_alg».proof.Proof.LibLaneSum
import Idealize.ShloMosaic.Lib.ValueLayout
import Idealize.ShloMosaic.Lib.Pipeline.Value
import Idealize.ShloMosaic.PureOps.Ideal.Laws

/-!
# One half-tile of the tiled program, read at a row

The body computes, for each of two groups of 1024 rows, the same function of the component matrix (held
transposed, `[1024, 512]`), the components' squared norms (`[1, 512]`) and the 1024 rows of `x`: at row `r` the
logarithm of the mean over the components `k` of `exp (0 - max (‖φ_k‖² + ‖x_r‖² - 2 ⟨x_r, φ_k⟩) 0)`. Read at the
index `(r, 0)` of its `[1024, 1]` result this is `Cert.Mixture.kerRow` of the three operands' entries.
-/

noncomputable section

namespace Cert.KernelIdeal.KValue

open Cert.KernelIdeal Cert.KernelIdeal.Gen Idealize.ShloMosaic Idealize.ShloMosaic.ValueIdx Cert.Mixture Cert.LibLaneSum

/-- The body's matrix product: rows of `x` (1024 lanes) against the transposed component matrix. -/
abbrev rowsByComponents : DotDims S1024x1024 S1024x512 S1024x512 := dot_S1024x1024_S1024x512_S1024x512_1_0_0_1_n_n

theorem dot_l0 (i : S1024x512.Idx) (q : rowsByComponents.contr.Idx) : (rowsByComponents.lhsIdx i q 0).val = (i 0).val := by
  unfold DotDims.lhsIdx
  rw [dif_neg (show ¬(0 : Fin S1024x1024.rank) ∈ rowsByComponents.lhsBatch by decide),
    dif_pos (show (0 : Fin S1024x1024.rank) ∈ rowsByComponents.lhsNonContracting by decide)]
  rfl
theorem dot_l1 (i : S1024x512.Idx) (q : rowsByComponents.contr.Idx) :
    (rowsByComponents.lhsIdx i q 1).val = (q ⟨0, by decide⟩).val :=
  rowsByComponents.lhsIdx_val_of_single rfl i q
theorem dot_r0 (i : S1024x512.Idx) (q : rowsByComponents.contr.Idx) :
    (rowsByComponents.rhsIdx i q 0).val = (q ⟨0, by decide⟩).val :=
  rowsByComponents.rhsIdx_val_of_single rfl i q
theorem dot_r1 (i : S1024x512.Idx) (q : rowsByComponents.contr.Idx) : (rowsByComponents.rhsIdx i q 1).val = (i 1).val := by
  unfold DotDims.rhsIdx
  rw [dif_neg (show ¬(1 : Fin S1024x512.rank) ∈ rowsByComponents.rhsBatch by decide),
    dif_pos (show (1 : Fin S1024x512.rank) ∈ rowsByComponents.rhsNonContracting by decide)]
  rfl

/-- The expanded squared distance between row `r` and component `k`, before the clamp:
    `‖φ_k‖² + ‖x_r‖² - 2 ⟨x_r, φ_k⟩`. -/
theorem dist_apply (v1 : FVec Ideal S1024x512 .bf16) (v3 : FVec Ideal S1x512 .f32) (v36 : FVec Ideal S1024x1024 .f32)
    (r : Fin 1024) (k : Fin 512) :
    subf (addf (broadcastTo S1024x512 v3 Facts₀.broadcasts_S1x512_S1024x512)
          (broadcastTo S1024x512 (shapeCast S1024x1 (multiReduction .add [1] S1024 (mulf v36 v36) 0x00000000#32
            Facts₀.reduces_S1024x1024_S1024 (.inl rfl) rfl) Facts₀.shapeCasts_S1024_S1024x1) Facts₀.broadcasts_S1024x1_S1024x512))
        (mulf (broadcast S1024x512 (Scalar.ofBits .f32 0x40000000#32))
          (matmul rowsByComponents none (truncf .bf16 v36 Facts₀.bitsLt_bf16_f32) v1 (constant S1024x512 .f32 0x00000000#32)))
        (ix2 r k)
      = (v3 (ix2 (0 : Fin 1) k) + ∑ d : Fin 1024, v36 (ix2 r d) * v36 (ix2 r d))
          - Ideal.ofBits .f32 0x40000000#32 * ∑ d : Fin 1024, v36 (ix2 r d) * v1 (ix2 d k) := by
  show (broadcastTo S1024x512 v3 Facts₀.broadcasts_S1x512_S1024x512 (ix2 r k)
        + broadcastTo S1024x512 (shapeCast S1024x1 (multiReduction .add [1] S1024 (mulf v36 v36) 0x00000000#32
            Facts₀.reduces_S1024x1024_S1024 (.inl rfl) rfl) Facts₀.shapeCasts_S1024_S1024x1) Facts₀.broadcasts_S1024x1_S1024x512 (ix2 r k))
      - Ideal.ofBits .f32 0x40000000#32
        * FloatOps.matmul rowsByComponents none (truncf .bf16 v36 Facts₀.bitsLt_bf16_f32) v1 (constant S1024x512 .f32 0x00000000#32) (ix2 r k) = _
  rw [broadcastTo_1b_ab_apply, Cert.LibRowwise.broadcastTo_a1_ab_apply]
  refine congrArg₂ (fun a b => (v3 (ix2 (0 : Fin 1) k) + a) - Ideal.ofBits .f32 0x40000000#32 * b) ?_ ?_
  · exact (lane_sum_col (mulf v36 v36) _ _ _ _ r 0).trans rfl
  · exact (Cert.LibDot.matmul_zero_apply rowsByComponents rfl rfl dot_l0 dot_l1 dot_r0 dot_r1 none _ v1 r k).trans rfl

/-- The second half's stored value at `(r, 0)`. -/
theorem pay1_apply (v1 : FVec Ideal S1024x512 .bf16) (v3 : FVec Ideal S1x512 .f32) (v36 : FVec Ideal S1024x1024 .f32)
    (r : Fin 1024) :
    k0_pay1 (F := Ideal) v1 v3 v36 (k0_pay5 v36) (ix2 r (0 : Fin 1))
      = kerRow (fun k => v3 (ix2 (0 : Fin 1) k)) (fun d k => v1 (ix2 d k)) (fun d => v36 (ix2 r d)) := by
  unfold k0_pay1 k0_pay5 kerRow
  refine congrArg (fun s => Ideal.log (Ideal.div s (Ideal.ofBits .f32 0x44000000#32) + Ideal.ofBits .f32 0x3089705F#32)) ?_
  refine (lane_sum_col _ Facts₀.reduces_S1024x512_S1024 (.inl rfl) rfl Facts₀.shapeCasts_S1024_S1024x1 r 0).trans
    (Finset.sum_congr rfl fun k _ => ?_)
  refine congrArg (fun s => Ideal.exp (Ideal.ofBits .f32 0x00000000#32 - max s (Ideal.ofBits .f32 0x00000000#32))) ?_
  exact dist_apply v1 v3 v36 r k

/-- The first half stores the same function of its operands. -/
theorem pay4_eq_pay1 {F : FTy → Type} [FloatOps F] (v0 : Vec F S1024x512 .bf16) (v2 : Vec F S1x512 .f32)
    (v7 : Vec F S1024x1024 .f32) :
    k0_pay4 v0 v2 v7 = k0_pay1 (k0_pay2 v0) (k0_pay3 v2) v7 (k0_pay5 v7) := rfl

/-- The reshapes of the two resident operands to their own shapes change nothing. -/
theorem pay2_eq {F : FTy → Type} [FloatOps F] (v0 : Vec F S1024x512 .bf16) : k0_pay2 v0 = v0 := shapeCast_self _ _
theorem pay3_eq {F : FTy → Type} [FloatOps F] (v2 : Vec F S1x512 .f32) : k0_pay3 v2 = v2 := shapeCast_self _ _

/-- The first half's stored value at `(r, 0)`. -/
theorem pay4_apply (v0 : FVec Ideal S1024x512 .bf16) (v2 : FVec Ideal S1x512 .f32) (v7 : FVec Ideal S1024x1024 .f32)
    (r : Fin 1024) :
    k0_pay4 (F := Ideal) v0 v2 v7 (ix2 r (0 : Fin 1))
      = kerRow (fun k => v2 (ix2 (0 : Fin 1) k)) (fun d k => v0 (ix2 d k)) (fun d => v7 (ix2 r d)) := by
  rw [pay4_eq_pay1, pay2_eq, pay3_eq]
  exact pay1_apply v0 v2 v7 r

end Cert.KernelIdeal.KValue

end
-- ==== Proof.KernelBlock.lean ====
import proofs.«151638_j88424786690567_2_alg».proof.Proof.Gen.KernelIdeal.Frame
import proofs.«151638_j88424786690567_2_alg».proof.Proof.KernelHalf
import Idealize.ShloMosaic.Lib.Pipeline.Value
import Idealize.ShloMosaic.Lib.Tactic

/-!
# What the body leaves in its output block

The body reads rows 0–1023 of its `[2048, 1024]` block of `x`, stores the half-tile function of them into rows
0–1023 of its `[2048, 1]` output block, and does the same with rows 1024–2047. So the output block holds, at
`(q, 0)`, `Cert.Mixture.kerRow` of the two resident operands and row `q` of the `x` block, for every `q < 2048`.
-/

set_option maxRecDepth 16384

noncomputable section

namespace Cert.KernelIdeal.KValue

open Cert.KernelIdeal Cert.KernelIdeal.Gen Idealize.ShloMosaic Idealize.ShloMosaic.TcCoe Idealize.SL.Sem
  Idealize.ShloMosaic.ValueIdx Cert.Mixture

theorem hz2 : (![0, 0] : Fin 2 → Nat) = fun _ => 0 := funext fun a => by fin_cases a <;> rfl

/-- The two stores of the body, last first: rows 1024–2047, then rows 0–1023, each the half-tile function of the
    rows of `x` loaded at the same offset. -/
def pieces {F : FTy → Type} [FloatOps F] (x0 : Vec F S2048x1024 .f32) (x1 : Vec F S1024x512 .bf16) (x2 : Vec F S1x512 .f32) :
    List (View.Piece (Elt F) S2048x1 .f32) :=
  [⟨Rect.unit ![1024, 0] ![1024, 1] (by decide),
      k0_pay1 x1 x2 (View.ld x0 (Rect.unit ![1024, 0] S1024x1024.size (by decide)))
        (k0_pay5 (View.ld x0 (Rect.unit ![1024, 0] S1024x1024.size (by decide))))⟩,
    ⟨Rect.unit ![0, 0] ![1024, 1] (by decide),
      k0_pay4 x1 x2 (View.ld x0 (Rect.unit ![0, 0] S1024x1024.size (by decide)))⟩]

/-- What the run leaves in the output's staging buffer is the read-back of those two stores. -/
theorem out_eq_canon {F : FTy → Type} [FloatOps F] (c : Dev nD) (i : grid0.Coords)
    (arg1 : Memref sig .tc .vmem S2048x1024 .f32) (harg1 : arg1.IsWhole) (arg2 : Memref sig .tc .vmem S1024x512 .bf16)
    (harg2 : arg2.IsWhole) (arg3 : Memref sig .tc .vmem S1x512 .f32) (harg3 : arg3.IsWhole)
    (arg4 : Memref sig .tc .vmem S2048x1 .f32) (harg4 : arg4.IsWhole)
    (x0 : Vec F S2048x1024 .f32) (x1 : Vec F S1024x512 .bf16) (x2 : Vec F S1x512 .f32) :
    out0_A_3 c i arg1 harg1 arg2 harg2 arg3 harg3 arg4 harg4 x0 x1 x2 = View.canon (pieces x0 x1 x2) := by
  unfold out0_A_3
  rw [View.read_writes_eq_canon _ _ _ (cover0_A_3 c i arg1 harg1 arg2 harg2 arg3 harg3 arg4 harg4 x0 x1 x2)]
  unfold kernelRun0_A
  dsimp only
  sl_unfold_words
  simp only [View.readAt_eq_ld, harg1.read_unread, harg2.read_unread, harg3.read_unread,
    View.ld_unit_zero (S := S1024x512) hz2, View.ld_unit_zero (S := S1x512) hz2, pay2_eq, pay3_eq]
  rfl

/-- The block the body leaves, as one function of the block's index: row `q`'s logarithm at `(q, ·)`. -/
def blockFn (x0 : FVec Ideal S2048x1024 .f32) (x1 : FVec Ideal S1024x512 .bf16) (x2 : FVec Ideal S1x512 .f32) :
    S2048x1.Idx → EReal := fun y =>
  kerRow (fun k => x2 (ix2 (0 : Fin 1) k)) (fun d k => x1 (ix2 d k)) (fun d => x0 (ix2 (⟨(y 0).val, idx2_lt0 y⟩ : Fin 2048) d))

/-- A load of 1024 rows from row offset `o`, read at `(r, d)`, is the block at `(o + r, d)`. -/
theorem ld_rows (x0 : FVec Ideal S2048x1024 .f32) (o : ℕ) (inb : ∀ a, (![o, 0] : Fin 2 → Nat) a + S1024x1024.size a ≤ S2048x1024.size a)
    (r : Fin 1024) (d : Fin 1024) (q : Fin 2048) (hq : q.val = o + r.val) :
    View.ld (Val := Elt Ideal) (e' := EltTy.f32) x0 (Rect.unit (s := S2048x1024) ![o, 0] S1024x1024.size inb) (ix2 r d) = x0 (ix2 q d) := by
  show x0 ((Rect.unit (s := S2048x1024) ![o, 0] S1024x1024.size inb).emb (ix2 r d)) = x0 (ix2 q d)
  refine congrArg x0 (funext fun a => Fin.ext ?_)
  match a with
  | ⟨0, _⟩ => show o + 1 * r.val = q.val; omega
  | ⟨1, _⟩ => show 0 + 1 * d.val = d.val; omega

/-- Each store's payload is the block function on the rows it covers. -/
theorem pieces_restrict (x0 : FVec Ideal S2048x1024 .f32) (x1 : FVec Ideal S1024x512 .bf16) (x2 : FVec Ideal S1x512 .f32) :
    ∀ p ∈ pieces (F := Ideal) x0 x1 x2, ∀ x : p.1.shape.Idx, p.2 x = blockFn x0 x1 x2 (p.1.emb x) := by
  intro p hp x
  simp only [pieces, List.mem_cons, List.not_mem_nil, or_false] at hp
  rcases hp with rfl | rfl
  · obtain ⟨r, u, rfl⟩ : ∃ (r : Fin 1024) (u : Fin 1), x = ix2 r u := ⟨x 0, x 1, eq_ix2 x⟩
    obtain rfl : u = 0 := Subsingleton.elim _ _
    refine (pay1_apply x1 x2 _ r).trans ?_
    unfold blockFn
    refine congrArg (kerRow _ _) (funext fun d => ?_)
    exact ld_rows x0 1024 _ r d _ (by show 1024 + 1 * r.val = 1024 + r.val; omega)
  · obtain ⟨r, u, rfl⟩ : ∃ (r : Fin 1024) (u : Fin 1), x = ix2 r u := ⟨x 0, x 1, eq_ix2 x⟩
    obtain rfl : u = 0 := Subsingleton.elim _ _
    refine (pay4_apply x1 x2 _ r).trans ?_
    unfold blockFn
    refine congrArg (kerRow _ _) (funext fun d => ?_)
    exact ld_rows x0 0 _ r d _ (by show 0 + 1 * r.val = 0 + r.val; omega)

/-- Every row of the block is under one of the two stores. -/
theorem pieces_cover (x0 : FVec Ideal S2048x1024 .f32) (x1 : FVec Ideal S1024x512 .bf16) (x2 : FVec Ideal S1x512 .f32)
    (y : S2048x1.Idx) : ∃ p ∈ pieces (F := Ideal) x0 x1 x2, y ∈ p.1.set := by
  have h0 : (y 0).val < 2048 := idx2_lt0 y
  have h1 : (y 1).val < 1 := idx2_lt1 y
  by_cases h : (y 0).val < 1024
  · refine ⟨_, List.mem_cons_of_mem _ (List.mem_singleton_self _), ?_⟩
    rw [Rect.mem_set_unit]
    intro a
    match a with
    | ⟨0, _⟩ => show 0 ≤ (y 0).val ∧ (y 0).val < 0 + 1024; omega
    | ⟨1, _⟩ => show 0 ≤ (y 1).val ∧ (y 1).val < 0 + 1; omega
  · refine ⟨_, List.mem_cons_self, ?_⟩
    rw [Rect.mem_set_unit]
    intro a
    match a with
    | ⟨0, _⟩ => show 1024 ≤ (y 0).val ∧ (y 0).val < 1024 + 1024; omega
    | ⟨1, _⟩ => show 0 ≤ (y 1).val ∧ (y 1).val < 0 + 1; omega

/-- The output block after the body, at `(q, 0)`: row `q`'s logarithm. -/
theorem out_apply (c : Dev nD) (i : grid0.Coords)
    (arg1 : Memref sig .tc .vmem S2048x1024 .f32) (harg1 : arg1.IsWhole) (arg2 : Memref sig .tc .vmem S1024x512 .bf16)
    (harg2 : arg2.IsWhole) (arg3 : Memref sig .tc .vmem S1x512 .f32) (harg3 : arg3.IsWhole)
    (arg4 : Memref sig .tc .vmem S2048x1 .f32) (harg4 : arg4.IsWhole)
    (x0 : FVec Ideal S2048x1024 .f32) (x1 : FVec Ideal S1024x512 .bf16) (x2 : FVec Ideal S1x512 .f32) (q : Fin 2048) :
    out0_A_3 (F := Ideal) c i arg1 harg1 arg2 harg2 arg3 harg3 arg4 harg4 x0 x1 x2 (ix2 q (0 : Fin 1))
      = kerRow (fun k => x2 (ix2 (0 : Fin 1) k)) (fun d k => x1 (ix2 d k)) (fun d => x0 (ix2 q d)) := by
  rw [out_eq_canon]
  exact View.canon_apply_of_pieces (blockFn x0 x1 x2) _ (pieces_restrict x0 x1 x2) _ (pieces_cover x0 x1 x2 _)

end Cert.KernelIdeal.KValue

end
-- ==== Proof.KernelArray.lean ====
import proofs.«151638_j88424786690567_2_alg».proof.Proof.Gen.KernelIdeal.Frame
import proofs.«151638_j88424786690567_2_alg».proof.Proof.KernelBlock
import Idealize.ShloMosaic.Lib.Pipeline.Value

/-!
# The output column after the run

Grid point `t` (of 8) reads rows `2048 t … 2048 t + 2047` of `x` and the two resident operands whole, and writes
back rows `2048 t … 2048 t + 2047` of the `[16384, 1]` output column. The eight blocks tile the column, so after the
run entry `(b, 0)` holds `Cert.Mixture.kerRow` of the resident operands and row `b` of `x`, for every `b < 16384`.
-/

set_option maxRecDepth 16384

noncomputable section

namespace Cert.KernelIdeal.KValue

open Cert.KernelIdeal Cert.KernelIdeal.Gen Idealize.ShloMosaic Idealize.ShloMosaic.TcCoe Idealize.SL.Sem
  Idealize.ShloMosaic.ValueIdx Cert.Mixture
open Idealize.ShloMosaic.Pipeline (Dat)

variable (m : (ℓ : Loc nD τ sig) → Buf (Elt Ideal) ℓ)

/-- The column as one function of the three arrays the region reads: row `b`'s logarithm at `(b, ·)`. -/
def colFn (A0 : S16384x1024.Idx → EReal) (A1 : S1024x512.Idx → EReal) (A2 : S1x512.Idx → EReal) : S16384x1.Idx → EReal :=
  fun i => kerRow (fun k => A2 (ix2 (0 : Fin 1) k)) (fun d k => A1 (ix2 d k))
    (fun d => A0 (ix2 (⟨(i 0).val, idx2_lt0 i⟩ : Fin 16384) d))

/-- The printed index maps, decided over the grid: the block of `x` moves with the output's block along the rows,
    the resident operands' block never moves, and there are eight row blocks. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every row block is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- The squared-norm row, read through its (never moving) block. -/
theorem iblk2_apply (c : Dev nD) (t : Fin cfg0.N) (k : Fin 512) :
    (iblk m c 2 t : S1x512.Idx → EReal) (ix2 (0 : Fin 1) k) = (V m c main_call0_v14 : S1x512.Idx → EReal) (ix2 (0 : Fin 1) k) := by
  obtain ⟨-, -, -, -, e4, e5, -, -⟩ := idx_facts t
  unfold iblk
  rw [View.read_apply]
  show V m c main_call0_v14 (((cfg0.win 2).blk t).view.emb (ix2 (0 : Fin 1) k)) = V m c main_call0_v14 (ix2 (0 : Fin 1) k)
  refine congrArg (V m c main_call0_v14) (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

/-- The transposed component matrix, read through its (never moving) block. -/
theorem iblk1_apply (c : Dev nD) (t : Fin cfg0.N) (d : Fin 1024) (k : Fin 512) :
    (iblk m c 1 t : S1024x512.Idx → EReal) (ix2 d k) = (V m c main_call0_v11 : S1024x512.Idx → EReal) (ix2 d k) := by
  obtain ⟨-, -, e2, e3, -, -, -, -⟩ := idx_facts t
  unfold iblk
  rw [View.read_apply]
  show V m c main_call0_v11 (((cfg0.win 1).blk t).view.emb (ix2 d k)) = V m c main_call0_v11 (ix2 d k)
  refine congrArg (V m c main_call0_v11) (funext fun a => Fin.ext ?_)
  match a with
  | ⟨0, _⟩ => show win0_1.index t (0 : Fin 2) * 1024 + 1 * d.val = d.val; omega
  | ⟨1, _⟩ => show win0_1.index t (1 : Fin 2) * 512 + 1 * k.val = k.val; omega

/-- The block of `x` at point `t`: its row `q` is row `2048 · (block index) + q` of `x`. -/
theorem iblk0_apply (c : Dev nD) (t : Fin cfg0.N) (q : Fin 2048) (d : Fin 1024) (b : Fin 16384)
    (hb : b.val = win0_3.index t (0 : Fin 2) * 2048 + q.val) :
    (iblk m c 0 t : S2048x1024.Idx → EReal) (ix2 q d) = (V m c main_arg0 : S16384x1024.Idx → EReal) (ix2 b d) := by
  obtain ⟨e0, e1, -, -, -, -, -, -⟩ := idx_facts t
  unfold iblk
  rw [View.read_apply]
  show V m c main_arg0 (((cfg0.win 0).blk t).view.emb (ix2 q d)) = V m c main_arg0 (ix2 b d)
  refine congrArg (V m c main_arg0) (funext fun a => Fin.ext ?_)
  match a with
  | ⟨0, _⟩ => show win0_0.index t (0 : Fin 2) * 2048 + 1 * q.val = b.val; omega
  | ⟨1, _⟩ => show win0_0.index t (1 : Fin 2) * 1024 + 1 * d.val = d.val; omega

/-- WHAT POINT `t` WRITES BACK is block `t` of the column function of the arrays as the region finds them. -/
theorem flushed_eq (c : Dev nD) (t : Fin cfg0.N) :
    (dats m 0 c).flushed 3 t
      = ((cfg0.win 3).blk t).view.read (Elt Ideal) (colFn (V m c main_arg0) (V m c main_call0_v11) (V m c main_call0_v14)) := by
  show (cfg0.win 3).cut (grid0.coords t) ((dats m 0 c).after 3 t) = _
  rw [after0_3]
  unfold outsAt0
  funext j
  obtain ⟨q, u, rfl⟩ : ∃ (q : Fin 2048) (u : Fin 1), j = ix2 q u := ⟨j 0, j 1, eq_ix2 j⟩
  obtain rfl : u = 0 := Subsingleton.elim _ _
  obtain ⟨-, -, -, -, -, -, e6, -⟩ := idx_facts t
  refine (out_apply c (grid0.coords t) (ms0_0 t) (hs0_0 t) (ms0_1 t) (hs0_1 t) (ms0_2 t) (hs0_2 t) (ms0_3 t) (hs0_3 t)
    (iblk m c 0 t) (iblk m c 1 t) (iblk m c 2 t) q).trans ?_
  rw [View.read_apply]
  unfold colFn
  have hrow : (((cfg0.win 3).blk t).view.emb (ix2 q (0 : Fin 1)) (0 : Fin 2)).val = win0_3.index t (0 : Fin 2) * 2048 + q.val := by
    show win0_3.index t (0 : Fin 2) * 2048 + 1 * q.val = _; omega
  refine congr (congr (congrArg kerRow (funext fun k => iblk2_apply m c t k)) (funext fun d => funext fun k => iblk1_apply m c t d k))
    (funext fun d => iblk0_apply m c t q d _ hrow)

/-- An index of the column is in point `t`'s block iff its row is in the block's range. -/
theorem mem_blk (t : Fin cfg0.N) (i : S16384x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_call0_v15).slice (win0_3.rect t)).set ↔ _
  rw [View.set_slice_whole, Rect.mem_set_unit]
  exact Iff.rfl

/-- The eight blocks cover the column. -/
theorem cover (i : S16384x1.Idx) : ∃ t : Fin cfg0.N, (cfg0.win 3).flush t = true ∧ i ∈ ((cfg0.win 3).blk t).view.set := by
  have hi0 : (i 0).val < 16384 := idx2_lt0 i
  have hi1 : (i 1).val < 1 := idx2_lt1 i
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1 ≤ (i 1).val ∧ (i 1).val < win0_3.index t (1 : Fin 2) * 1 + 1; omega

/-- THE COLUMN after the run: the column function of the arrays as the region finds them. -/
theorem final (c : Dev nD) :
    (dats m 0 c).arrAt 3 cfg0.N = colFn (V m c main_arg0) (V m c main_call0_v11) (V m c main_call0_v14) :=
  (dats m 0 c).arrAt_eq_of_cover 3 _ (fun t _ => flushed_eq m c t) (cover)

end Cert.KernelIdeal.KValue

end
-- ==== Proof.KernelHostTail.lean ====
import proofs.«151638_j88424786690567_2_alg».proof.Proof.Gen.KernelIdeal.Frame
import proofs.«151638_j88424786690567_2_alg».proof.Proof.Spec
import Idealize.ShloMosaic.Lib.StableHlo.Run
import Idealize.ShloMosaic.Lib.Pipeline.Value
import Idealize.ShloMosaic.Lib.Tactic

/-!
# The tiled program's result from its region's output column

After the region the host sums the `[16384, 1]` column the region wrote, from zero, and divides by 16384: the
result is `Cert.Mixture.total` of the column's entries.
-/

noncomputable section

namespace Cert.KernelIdeal.KValue

open Cert.KernelIdeal Cert.KernelIdeal.Gen Idealize.ShloMosaic Idealize.ShloMosaic.TcCoe Idealize.SL.Sem
  Idealize.ShloMosaic.ValueIdx Cert.Mixture

variable (m : (ℓ : Loc nD τ sig) → Buf (Elt Ideal) ℓ)

/-- The host's tail over any column `A`: the sum of its entries from zero, divided by 16384. The reduction runs over
    both axes into the scalar shape, so it is the initial value plus the sum over every index; a column's indices
    are its 16384 rows. -/
private theorem tail_val (A : S16384x1.Idx → EReal) :
    (Host.divf (F := Ideal) (φ := .f32)
        (Host.reduceAdd (F := Ideal) (φ := .f32) A (constant S_ .f32 0x00000000#32) Facts₀.reducesTo_S16384x1_S_d0_1
          Facts₀.h_S_)
        (constant S_ .f32 0x46800000#32) : S_.Idx → EReal)
      = fun _ => total (fun b => A (ix2 b (0 : Fin 1))) := by
  funext i
  -- the quotient at the one index is the ideal division of the sum by the constant
  show Ideal.div (Host.reduceAdd (F := Ideal) (φ := .f32) A (constant S_ .f32 0x00000000#32)
      Facts₀.reducesTo_S16384x1_S_d0_1 Facts₀.h_S_ i) (Ideal.ofBits .f32 0x46800000#32) = _
  simp only [Host.reduceAdd, Ideal.hostReduceAdd_def]
  rw [Ideal.hostReduceAdd_total Facts₀.reducesTo_S16384x1_S_d0_1 (fun b => b.elim0) A _ i, sum_col]
  rfl

/-- The program's result after the host's last four operations, from the column the region leaves. -/
theorem tail_eq (c : Dev nD) :
    (Pipeline.afterTail₀ cfgs (dats m) 0 (V0 m) [hostOps1] c main_v0 : S_.Idx → EReal)
      = fun _ => total (fun b => ((dats m 0 c).arrAt 3 cfg0.N : S16384x1.Idx → EReal) (ix2 b (0 : Fin 1))) := by
  unfold Pipeline.afterTail₀
  show StableHlo.after hostOps1 _ (Proc.devRef .tc main_v0) = _
  after_results
  -- the four operations applied: the quotient, by the constant, of the sum from zero of the buffer that holds
  -- the region's output, which is window 3's array
  show Host.divf (F := Ideal) (φ := .f32)
      (Host.reduceAdd (F := Ideal) (φ := .f32)
        (Pipeline.withArrays spec0 c (V0 m c) (fun w => (dats m 0 c).arrAt w cfg0.N)
          (Proc.devRef .tc (Pipeline.arrRef spec0 3)) : S16384x1.Idx → EReal)
        (constant S_ .f32 0x00000000#32) Facts₀.reducesTo_S16384x1_S_d0_1 Facts₀.h_S_)
      (constant S_ .f32 0x46800000#32) = _
  rw [Pipeline.withArrays_arr spec0 launch0.win.arr_inj c _ _ 3]
  exact tail_val _

end Cert.KernelIdeal.KValue

end
-- ==== Proof.KernelRun.lean ====
import proofs.«151638_j88424786690567_2_alg».proof.Proof.Gen.KernelIdeal.Frame
import proofs.«151638_j88424786690567_2_alg».proof.Proof.KernelArray
import proofs.«151638_j88424786690567_2_alg».proof.Proof.KernelHostTail

/-!
# The tiled program's run, read

Every weakly fair execution ends with the result at the mean of the 16384 row logarithms, each
`Cert.Mixture.kerRow` of the two resident operands and a row of `x` as the region finds them, and with the six
arguments unchanged.
-/

noncomputable section

namespace Cert.KernelIdeal.KValue

open Cert.KernelIdeal Cert.KernelIdeal.Gen Idealize.ShloMosaic Idealize.ShloMosaic.TcCoe Idealize.SL.Sem
  Idealize.ShloMosaic.ValueIdx Cert.Mixture
open Idealize.ShloMosaic.Pipeline (Dat)

variable (m : (ℓ : Loc nD τ sig) → Buf (Elt Ideal) ℓ) (ρ : Dev nD → PrngReg)

/-- The result: the mean over the rows of the column function's entries. -/
abbrev result (c : Dev nD) : Buf (Elt Ideal) ((c : Thread nD τ).loc main_v0) :=
  fun _ => total (fun b => colFn (V m c main_arg0) (V m c main_call0_v11) (V m c main_call0_v14) (ix2 b (0 : Fin 1)))

/-- What the host's last operations leave in the result buffer. -/
theorem tail_result (c : Dev nD) :
    Pipeline.afterTail₀ cfgs (dats m) 0 (V0 m) [hostOps1] c main_v0 = result m c := by
  refine (tail_eq m c).trans ?_
  rw [final]

/-- The run, read: the result at the mean of the rows, the arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (tail_result m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KValue

end
-- ==== Proof.RefSide.lean ====
import proofs.«151638_j88424786690567_2_alg».proof.Defs
import proofs.«151638_j88424786690567_2_alg».proof.Proof.Gen.ReferenceIdeal.Read
import proofs.«151638_j88424786690567_2_alg».proof.Proof.Spec

/-!
# The plain program, read row by row

Its per-row logarithm is `Cert.Mixture.refRow` of the component matrix `φ` (the two-layer perceptron applied to
the 512 latent samples) and the row; its result is `Cert.Mixture.total` of the rows; and `φ` is real
wherever the six inputs are.
-/

noncomputable section

namespace Cert.ReferenceIdeal.RefValue

open Cert.ReferenceIdeal Cert.ReferenceIdeal.Gen Cert.ReferenceIdeal.Read Idealize.ShloMosaic Idealize.ShloMosaic.ValueIdx Cert.Mixture

/-- The component matrix `φ = relu (z · W1 + b1) · W2 + b2`, as the plain program's stages give it. -/
abbrev phi (x1 : (⟨S512x128, .f32⟩ : BufTy).Contents (Elt Ideal)) (x2 : (⟨S128x64, .f32⟩ : BufTy).Contents (Elt Ideal))
    (x3 : (⟨S64, .f32⟩ : BufTy).Contents (Elt Ideal)) (x4 : (⟨S64x1024, .f32⟩ : BufTy).Contents (Elt Ideal))
    (x5 : (⟨S1024, .f32⟩ : BufTy).Contents (Elt Ideal)) : (⟨S512x1024, .f32⟩ : BufTy).Contents (Elt Ideal) :=
  Read.val_main_v9 (F := Ideal) x1 x2 x3 x4 x5

variable (x0 : (⟨S16384x1024, .f32⟩ : BufTy).Contents (Elt Ideal)) (x1 : (⟨S512x128, .f32⟩ : BufTy).Contents (Elt Ideal))
  (x2 : (⟨S128x64, .f32⟩ : BufTy).Contents (Elt Ideal)) (x3 : (⟨S64, .f32⟩ : BufTy).Contents (Elt Ideal))
  (x4 : (⟨S64x1024, .f32⟩ : BufTy).Contents (Elt Ideal)) (x5 : (⟨S1024, .f32⟩ : BufTy).Contents (Elt Ideal))

/-- Row `b` of the per-row logarithms is `refRow` of `φ` and row `b` of `x`. -/
theorem row_eq (b : Fin 16384) :
    Read.val_main_v31 (F := Ideal) x0 x1 x2 x3 x4 x5 (ix1 b)
      = refRow (fun k d => phi x1 x2 x3 x4 x5 (ix2 k d)) (fun d => x0 (ix2 b d)) := by
  -- the composed index maps of the stages, at row `b`, component `k` and coordinate `d`
  have e1 : ∀ (k : Fin 512) (d : Fin 1024),
      idx_main_v11 (idx_main_v12 (idx_main_v16 (idx_main_v26 (ix1 b) k))) d = ix2 k d := fun k d =>
    funext fun a => Fin.ext (by match a with | ⟨0, _⟩ => rfl | ⟨1, _⟩ => rfl)
  have e2 : ∀ (k : Fin 512) (d : Fin 1024),
      idx_main_v14 (idx_main_v15 (idx_main_v17 (idx_main_v26 (ix1 b) k))) d = ix2 b d := fun k d =>
    funext fun a => Fin.ext (by match a with | ⟨0, _⟩ => rfl | ⟨1, _⟩ => rfl)
  have e3 : ∀ (k : Fin 512) (d : Fin 1024), lidx_main_v20 (idx_main_v26 (ix1 b) k) d = ix2 k d := fun k d =>
    funext fun a => Fin.ext (by match a with | ⟨0, _⟩ => rfl | ⟨1, _⟩ => rfl)
  have e4 : ∀ (k : Fin 512) (d : Fin 1024),
      idx_main_v19 (ridx_main_v20 (idx_main_v26 (ix1 b) k) d) = ix2 b d := fun k d =>
    funext fun a => Fin.ext (by match a with | ⟨0, _⟩ => rfl | ⟨1, _⟩ => rfl)
  -- the stages, outermost first, down to `φ` and the row
  simp only [val_main_v31_apply, val_main_v30_apply, val_main_v28_apply, val_main_v29_apply, val_main_v26_apply,
    val_main_v27_apply, val_main_v25_apply, val_main_v24_apply, val_main_v23_apply, val_main_v18_apply,
    val_main_v22_apply, val_main_v16_apply, val_main_v17_apply, val_main_v21_apply, val_main_v20_apply,
    val_main_v12_apply, val_main_v15_apply, val_main_v19_apply, val_main_v11_apply, val_main_v14_apply,
    val_main_v10_apply, val_main_v13_apply, val_main_cst_0_apply, val_main_cst_1_apply, val_main_cst_2_apply,
    val_main_cst_3_apply, val_main_cst_4_apply, val_main_cst_5_apply]
  simp only [e1, e2, e3, e4]
  unfold refRow
  simp only [Ideal.hostUnary_exp_def, Ideal.hostUnary_log_def, Ideal.hostDivf_def, Ideal.hostNegf_def, Ideal.negf_def,
    Ideal.addf_def, Ideal.subf_def, Ideal.mulf_def, Ideal.ofBits_def]

/-- The result is the mean of the rows. -/
theorem result_eq :
    Read.val_main_v33 (F := Ideal) x0 x1 x2 x3 x4 x5
      = fun _ => total (fun b => Read.val_main_v31 (F := Ideal) x0 x1 x2 x3 x4 x5 (ix1 b)) := by
  funext i
  rw [val_main_v33_apply, val_main_v32_apply, val_main_cst_6_apply, val_main_cst_7_apply,
    sum_vec (fun j => val_main_v31 (F := Ideal) x0 x1 x2 x3 x4 x5 j)]
  unfold total
  simp only [Ideal.hostDivf_def, Ideal.ofBits_def]

/-- `φ` is real wherever the inputs are. -/
theorem phi_real (h1 : ∀ i, IsReal (x1 i)) (h2 : ∀ i, IsReal (x2 i)) (h3 : ∀ i, IsReal (x3 i)) (h4 : ∀ i, IsReal (x4 i))
    (h5 : ∀ i, IsReal (x5 i)) (i : S512x1024.Idx) : IsReal (phi x1 x2 x3 x4 x5 i) := by
  show IsReal (val_main_v9 (F := Ideal) x1 x2 x3 x4 x5 i)
  simp only [val_main_v9_apply, val_main_v8_apply, val_main_v7_apply, val_main_v6_apply, val_main_v5_apply,
    val_main_v4_apply, val_main_cst_apply, val_main_v3_apply, val_main_v2_apply, val_main_v1_apply, val_main_v0_apply]
  simp only [Ideal.addf_def, Ideal.maximumf_def, Ideal.ofBits_def]
  -- a sum of products of reals, clamped at the zero word, times reals, summed, plus a real
  exact IsReal.add (IsReal.sum _ _ fun k _ => IsReal.mul (IsReal.max (IsReal.add (IsReal.sum _ _ fun j _ =>
    IsReal.mul (h1 _) (h2 _)) (h3 _)) isReal_zero_word) (h4 _)) (h5 _)

end Cert.ReferenceIdeal.RefValue

end
-- ==== Proof.KernelHostHead.lean ====
import proofs.«151638_j88424786690567_2_alg».proof.Proof.Gen.KernelIdeal.Frame
import proofs.«151638_j88424786690567_2_alg».proof.Proof.RefSide
import Idealize.ShloMosaic.Lib.StableHlo.Run
import Idealize.ShloMosaic.Lib.ValueLayout
import Idealize.ShloMosaic.Lib.Tactic

/-!
# What the tiled program's two resident operands hold when its region is entered

Before the region the host computes the component matrix `φ` by the same operations as the plain program, hands
the region its transpose (a change of float format is the identity on the extended reals), and the row vector of
the components' squared norms `0 + Σ_d φ[k,d]²`, reshaped from `[512]` to `[1, 512]`.
-/

noncomputable section

namespace Cert.KernelIdeal.KValue

open Cert.KernelIdeal Cert.KernelIdeal.Gen Idealize.ShloMosaic Idealize.ShloMosaic.TcCoe Idealize.SL.Sem
  Idealize.ShloMosaic.ValueIdx Cert.Mixture

variable (m : (ℓ : Loc nD τ sig) → Buf (Elt Ideal) ℓ)

/-- The component matrix of the memory `m`'s five small inputs, as the plain program's stages name it. -/
abbrev phiOf (c : Dev nD) : (⟨2, ![512, 1024]⟩ : Shape).Idx → EReal :=
  Cert.ReferenceIdeal.RefValue.phi (m ((c : Thread nD τ).loc main_arg1)) (m ((c : Thread nD τ).loc main_arg2))
    (m ((c : Thread nD τ).loc main_arg3)) (m ((c : Thread nD τ).loc main_arg4)) (m ((c : Thread nD τ).loc main_arg5))

/-- A host sum of a `[512, 1024]` array along its rows, started at the zero word, read at row `k`. -/
private theorem reduce_rows (y : FVec Ideal S512x1024 .f32) (k : Fin 512) :
    Host.reduceAdd (F := Ideal) y (constant (F := Ideal) S_ .f32 0x00000000#32) Facts₀.reducesTo_S512x1024_S512_d1
        Facts₀.h_S_ (ix1 k)
      = Ideal.ofBits .f32 0x00000000#32 + ∑ d : Fin 1024, y (ix2 k d) := by
  simp only [Host.reduceAdd, Ideal.hostReduceAdd_def]
  rw [Ideal.hostReduceAdd_single Facts₀.reducesTo_S512x1024_S512_d1 (by decide)]
  refine congrArg (_ + ·) (Finset.sum_congr rfl fun d _ => ?_)
  exact congrArg y (funext fun a => Fin.ext (by match a with | ⟨0, _⟩ => rfl | ⟨1, _⟩ => rfl))

/-- The second operand of the region is the transpose of `φ`. -/
theorem V_phiT (c : Dev nD) (d : Fin 1024) (k : Fin 512) :
    (V m c main_call0_v11 : S1024x512.Idx → EReal) (ix2 d k) = phiOf m c (ix2 k d) := by
  -- the host operations up to this operand: `φ` (the same operations on the same arrays as the plain program's),
  -- transposed; the change of float format is the identity on the extended reals
  have e : (V m c main_call0_v11 : S1024x512.Idx → EReal)
      = transpose S1024x512 [1, 0] (phiOf m c) Facts₀.transposes_S512x1024_S1024x512_1_0 := by
    show StableHlo.after hostOps0 (fun b => m (c, b)) (Proc.devRef .tc main_call0_v11) = _
    after_results
    rfl
  rw [e]
  exact transpose_ix2_apply (phiOf m c) Facts₀.transposes_S512x1024_S1024x512_1_0 d k

/-- The third operand of the region is the row of squared norms of `φ`'s rows. -/
theorem V_phisq (c : Dev nD) (k : Fin 512) :
    (V m c main_call0_v14 : S1x512.Idx → EReal) (ix2 (0 : Fin 1) k)
      = Ideal.ofBits .f32 0x00000000#32 + ∑ d : Fin 1024, phiOf m c (ix2 k d) * phiOf m c (ix2 k d) := by
  -- the host operations up to this operand: `φ` squared entrywise, summed along each row from the zero word,
  -- and the `[512]` vector of sums reshaped to `[1, 512]`
  have e : (V m c main_call0_v14 : S1x512.Idx → EReal)
      = shapeCast S1x512 (Host.reduceAdd (F := Ideal) (mulf (phiOf m c : FVec Ideal S512x1024 .f32) (phiOf m c))
          (constant (F := Ideal) S_ .f32 0x00000000#32) Facts₀.reducesTo_S512x1024_S512_d1 Facts₀.h_S_)
          Facts₀.shapeCasts_S512_S1x512 := by
    show StableHlo.after hostOps0 (fun b => m (c, b)) (Proc.devRef .tc main_call0_v14) = _
    after_results
    rfl
  rw [e, shapeCast_a_1a_apply, reduce_rows]
  rfl

end Cert.KernelIdeal.KValue

end
-- ==== Proof.Finite.lean ====
import proofs.«151638_j88424786690567_2_alg».proof.Pre_finite_inputs
import proofs.«151638_j88424786690567_2_alg».proof.Proof.Gen.Pre_finite_inputs
import proofs.«151638_j88424786690567_2_alg».proof.Proof.Spec
import Idealize.ShloMosaic.Lib.ReduceAll

/-!
# The precondition says every input entry is a real number

`finite_inputs` is the conjunction, over the six inputs, of `all (|x| < +∞)`; an extended real whose absolute
value is below `+∞` is a real number.
-/

noncomputable section

namespace Cert.Pre_finite_inputs.Finite

open Cert.Pre_finite_inputs Idealize.ShloMosaic Cert.Mixture

variable [Cert.Pre_finite_inputs.Facts]

/-- Where the precondition's function is all ones, every entry of every input is real. -/
theorem real_of_pre (x0 : FVec Ideal S16384x1024 .f32) (x1 : FVec Ideal S512x128 .f32) (x2 : FVec Ideal S128x64 .f32)
    (x3 : FVec Ideal S64 .f32) (x4 : FVec Ideal S64x1024 .f32) (x5 : FVec Ideal S1024 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) := by
  -- the function's one value, at the scalar index, is the six-fold conjunction of the per-input reductions
  have h0 := congrFun h ValueIdx.ix0
  dsimp only [fn, fn_part1, andi] at h0
  simp only [IntOp.andi_eq_one] at h0
  obtain ⟨⟨⟨⟨⟨e0, e1⟩, e2⟩, e3⟩, e4⟩, e5⟩ := h0
  exact ⟨Cert.LibReal.real_of_all _ _ _ x0 _ e0, Cert.LibReal.real_of_all _ _ _ x1 _ e1, Cert.LibReal.real_of_all _ _ _ x2 _ e2, Cert.LibReal.real_of_all _ _ _ x3 _ e3,
    Cert.LibReal.real_of_all _ _ _ x4 _ e4, Cert.LibReal.real_of_all _ _ _ x5 _ e5⟩

end Cert.Pre_finite_inputs.Finite

end
-- ==== Proof.Bridge.lean ====
import proofs.«151638_j88424786690567_2_alg».proof.Defs
import proofs.«151638_j88424786690567_2_alg».proof.Proof.KernelRun
import proofs.«151638_j88424786690567_2_alg».proof.Proof.KernelHostHead
import proofs.«151638_j88424786690567_2_alg».proof.Proof.RefSide
import proofs.«151638_j88424786690567_2_alg».proof.Proof.Finite

/-!
# The two results are one number

On finite inputs the component matrix `φ` is real, so the tiled program's clamp at zero of the expanded squared
distance `‖φ_k‖² + ‖x_b‖² - 2⟨x_b, φ_k⟩ = Σ_d (x_b,d - φ_k,d)² ≥ 0` is the identity, and each of its rows is the
plain program's row; the two results are the same mean of the same 16384 rows.
-/

noncomputable section

namespace Cert.KernelIdeal.KValue

open Cert.KernelIdeal Cert.KernelIdeal.Gen Idealize.ShloMosaic Idealize.ShloMosaic.TcCoe Idealize.SL.Sem
  Idealize.ShloMosaic.ValueIdx Cert.Mixture

variable (m : (ℓ : Loc nD τ sig) → Buf (Elt Ideal) ℓ)

/-- Under the precondition the tiled program's result is the plain program's result term of the same inputs. -/
theorem result_eq_ref (hpre : Cert.Pre_KernelIdeal m) (c : Dev nD) :
    result m c = Cert.ReferenceIdeal.Read.val_main_v33 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) := by
  obtain ⟨h0, h1, h2, h3, h4, h5⟩ := Cert.Pre_finite_inputs.Finite.real_of_pre _ _ _ _ _ _ (hpre c)
  rw [Cert.ReferenceIdeal.RefValue.result_eq]
  funext _
  refine congrArg total (funext fun b => ?_)
  rw [Cert.ReferenceIdeal.RefValue.row_eq]
  unfold colFn
  refine (congr (congr (congrArg kerRow (funext fun k => V_phisq m c k)) (funext fun d => funext fun k => V_phiT m c d k))
    (funext fun d => congrFun (V_main_arg0 m c) _)).trans ?_
  exact kerRow_eq_refRow (fun k d => phiOf m c (ix2 k d)) (fun d => m ((c.tc : Thread nD τ).loc main_arg0) (ix2 b d))
    (fun k d => Cert.ReferenceIdeal.RefValue.phi_real _ _ _ _ _ h1 h2 h3 h4 h5 _) (fun d => h0 _)

end Cert.KernelIdeal.KValue

end
-- ==== Proof.lean ====
/-
  The proof of `Cert.Claim`: the three frames, `preserves` and `algebraic`.

  The tiled program computes the component matrix `φ` on the host, hands its transpose and the row of squared norms
  `‖φ_k‖²` to a grid of eight points, each of which writes, for 2048 rows `b` of `x`, the logarithm of the mean over
  the 512 components of `exp (0 - max (‖φ_k‖² + ‖x_b‖² - 2⟨x_b, φ_k⟩) 0)`; the host then takes the mean of the 16384
  logarithms. The plain program computes the same expanded squared distance for all pairs at once, without the clamp.
  On finite inputs `φ` is real and the expansion equals `Σ_d (x_b,d - φ_k,d)² ≥ 0`, so the clamp is the identity and
  the two results are the same extended real (Proof/Spec.lean, Proof/Bridge.lean). The idealization rewrote nothing,
  so `preserves` is trivial; each frame is its program's run with the result dropped.
-/
import proofs.«151638_j88424786690567_2_alg».proof.Defs
import proofs.«151638_j88424786690567_2_alg».proof.Proof.Gen.Kernel
import proofs.«151638_j88424786690567_2_alg».proof.Proof.Gen.Kernel.Skeleton
import proofs.«151638_j88424786690567_2_alg».proof.Proof.Gen.Kernel.Launch
import proofs.«151638_j88424786690567_2_alg».proof.Proof.Gen.Kernel.Points
import proofs.«151638_j88424786690567_2_alg».proof.Proof.Gen.Kernel.Frame
import proofs.«151638_j88424786690567_2_alg».proof.Proof.Gen.KernelIdeal
import proofs.«151638_j88424786690567_2_alg».proof.Proof.Gen.KernelIdeal.Skeleton
import proofs.«151638_j88424786690567_2_alg».proof.Proof.Gen.KernelIdeal.Launch
import proofs.«151638_j88424786690567_2_alg».proof.Proof.Gen.KernelIdeal.Points
import proofs.«151638_j88424786690567_2_alg».proof.Proof.Gen.KernelIdeal.Frame
import proofs.«151638_j88424786690567_2_alg».proof.Proof.Gen.ReferenceIdeal
import proofs.«151638_j88424786690567_2_alg».proof.Proof.Gen.ReferenceIdeal.Run
import proofs.«151638_j88424786690567_2_alg».proof.Proof.Gen.ReferenceIdeal.Read
import proofs.«151638_j88424786690567_2_alg».proof.Proof.Gen.Pre_finite_inputs
import proofs.«151638_j88424786690567_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the plain program's result term of the tiled program's inputs: the tiled program by its
    run and the bridge, the plain program by its run on inputs that agree. -/
theorem algebraic : Cert.algebraic_KernelIdeal_ReferenceIdeal := by
  intro m ρ m' ρ' hpre hagree
  refine ⟨fun c => Cert.ReferenceIdeal.Read.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result_eq_ref m hpre c), (h c).2⟩)
      (Cert.KernelIdeal.KValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
